-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S2x200000 : Shape := ⟨2, ![2, 200000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : IVec S2x200000 32) (main_arg3 : FVec F S256x128 .f32) (main_arg4 : FVec F S128 .f32) (main_arg5 : FVec F S128x64 .f32) (main_arg6 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x256 : Shape := ⟨2, ![100000, 256]⟩
abbrev S2x1600000 : Shape := ⟨2, ![2, 1600000]⟩
abbrev S2x200000 : Shape := ⟨2, ![2, 200000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S200704x64 : Shape := ⟨2, ![200704, 64]⟩
abbrev S200704 : Shape := ⟨1, ![200704]⟩
abbrev S2048x64 : Shape := ⟨2, ![2048, 64]⟩
abbrev S2048 : Shape := ⟨1, ![2048]⟩

abbrev nBuf : Space → Nat
  | .hbm => 120
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S2x200000, .i32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S100000x64, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x64, .f32⟩
  | .hbm, ⟨80, _⟩ => ⟨S1700000x1, .f32⟩
  | .hbm, ⟨81, _⟩ => ⟨S1700000x64, .f32⟩
  | .hbm, ⟨82, _⟩ => ⟨S1700000x64, .f32⟩
  | .hbm, ⟨83, _⟩ => ⟨S_, .f32⟩
  | .hbm, ⟨84, _⟩ => ⟨S100000x64, .f32⟩
  | .hbm, ⟨85, _⟩ => ⟨S1700000x1, .i32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S1x200000, .i32⟩
  | .hbm, ⟨91, _⟩ => ⟨S200000, .i32⟩
  | .hbm, ⟨92, _⟩ => ⟨S1x200000, .i32⟩
  | .hbm, ⟨93, _⟩ => ⟨S200000, .i32⟩
  | .hbm, ⟨94, _⟩ => ⟨S_, .i32⟩
  | .hbm, ⟨95, _⟩ => ⟨S200000, .i32⟩
  | .hbm, ⟨96, _⟩ => ⟨S200000, .i1⟩
  | .hbm, ⟨97, _⟩ => ⟨S_, .i32⟩
  | .hbm, ⟨98, _⟩ => ⟨S200000, .i32⟩
  | .hbm, ⟨99, _⟩ => ⟨S200000, .i32⟩
  | .hbm, ⟨100, _⟩ => ⟨S200000, .i32⟩
  | .hbm, ⟨101, _⟩ => ⟨S200000x1, .i32⟩
  | .hbm, ⟨102, _⟩ => ⟨S200000x64, .f32⟩
  | .hbm, ⟨103, _⟩ => ⟨S_, .i32⟩
  | .hbm, ⟨104, _⟩ => ⟨S200000, .i32⟩
  | .hbm, ⟨105, _⟩ => ⟨S200000, .i1⟩
  | .hbm, ⟨106, _⟩ => ⟨S_, .i32⟩
  | .hbm, ⟨107, _⟩ => ⟨S200000, .i32⟩
  | .hbm, ⟨108, _⟩ => ⟨S200000, .i32⟩
  | .hbm, ⟨109, _⟩ => ⟨S200000, .i32⟩
  | .hbm, ⟨110, _⟩ => ⟨S200000x1, .i32⟩
  | .hbm, ⟨111, _⟩ => ⟨S200000x64, .f32⟩
  | .hbm, ⟨112, _⟩ => ⟨S_, .i32⟩
  | .hbm, ⟨113, _⟩ => ⟨S_, .f32⟩
  | .hbm, ⟨114, _⟩ => ⟨S200704x64, .f32⟩
  | .hbm, ⟨115, _⟩ => ⟨S_, .i32⟩
  | .hbm, ⟨116, _⟩ => ⟨S_, .f32⟩
  | .hbm, ⟨117, _⟩ => ⟨S200704x64, .f32⟩
  | .hbm, ⟨118, _⟩ => ⟨S200704, .f32⟩
  | .hbm, ⟨119, _⟩ => ⟨S200000, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | .local _ .vmem, ⟨10, _⟩ => ⟨S2048x64, .f32⟩
  | .local _ .vmem, ⟨11, _⟩ => ⟨S2048x64, .f32⟩
  | .local _ .vmem, ⟨12, _⟩ => ⟨S2048x64, .f32⟩
  | .local _ .vmem, ⟨13, _⟩ => ⟨S2048x64, .f32⟩
  | .local _ .vmem, ⟨14, _⟩ => ⟨S2048, .f32⟩
  | .local _ .vmem, ⟨15, _⟩ => ⟨S2048, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_12 : Ref sig .tc := ⟨.hbm, 94, rfl⟩
abbrev main_v69 : Ref sig .tc := ⟨.hbm, 95, rfl⟩
abbrev main_v70 : Ref sig .tc := ⟨.hbm, 96, rfl⟩
abbrev main_c_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_14 : Ref sig .tc := ⟨.hbm, 103, rfl⟩
abbrev main_v76 : Ref sig .tc := ⟨.hbm, 104, rfl⟩
abbrev main_v77 : Ref sig .tc := ⟨.hbm, 105, rfl⟩
abbrev main_c_15 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_16 : Ref sig .tc := ⟨.hbm, 112, rfl⟩
abbrev main_call2_v0 : Ref sig .tc := ⟨.hbm, 113, rfl⟩
abbrev main_v83 : Ref sig .tc := ⟨.hbm, 114, rfl⟩
abbrev main_c_17 : Ref sig .tc := ⟨.hbm, 115, rfl⟩
abbrev main_call3_v0 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![98], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  pads_S200000x64_S200704x64_07040_000 : S200000x64.Pads (![0, 0] : Fin 2 → Nat) ![704, 0] ![0, 0] S200704x64
  h_S_ : 0 < S_.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  reduces_S2048x64_S2048 : S2048x64.Reduces [1] S2048
  inb_S2048_S2048_0 : ∀ a, (![0] : Fin 1 → Nat) a + S2048.size a ≤ S2048.size a
  h_S2048 : 0 < S2048.numel
  slices_S200704_S200000_0 : S200704.Slices ![0] S200000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S200000x1_S200000x64_1_0_n_n_0_1_164_wf : GatherDims.WF S100000x64 S200000x1 S200000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S200704x64.size a
  hwx2_0 : ∀ i : grid2.Coords, EltTy.bits .f32 = 32 ∨ (Rect.block (s := S200704x64) S2048x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S200704x64.size a
  hwx2_1 : ∀ i : grid2.Coords, EltTy.bits .f32 = 32 ∨ (Rect.block (s := S200704x64) S2048x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048.size a ≤ S200704.size a
  hwx2_2 : ∀ i : grid2.Coords, EltTy.bits .f32 = 32 ∨ (Rect.block (s := S200704) S2048.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v83) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v84) S2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v85) S2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S2x200000 : Shape := ⟨2, ![2, 200000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000x128 : Shape := ⟨2, ![100000, 128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩

abbrev nBuf : Space → Nat
  | .hbm => 155
  | .vmem => 0
  | .smem => 0
  | _ => 0

abbrev hbmTy0_0 (i : Nat) : BufTy := match i % 128 with
  | 0 => ⟨S100000x256, .f32⟩
  | 1 => ⟨S2x1600000, .i32⟩
  | 2 => ⟨S2x200000, .i32⟩
  | 3 => ⟨S256x128, .f32⟩
  | 4 => ⟨S128, .f32⟩
  | 5 => ⟨S128x64, .f32⟩
  | 6 => ⟨S64, .f32⟩
  | 7 => ⟨S100000x128, .f32⟩
  | 8 => ⟨S1x1600000, .i32⟩
  | 9 => ⟨S1600000, .i32⟩
  | 10 => ⟨S1x1600000, .i32⟩
  | 11 => ⟨S1600000, .i32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x128, .f32⟩
  | 57 => ⟨S1700000x1, .f32⟩
  | 58 => ⟨S1700000x128, .f32⟩
  | 59 => ⟨S1700000x128, .f32⟩
  | 60 => ⟨S_, .f32⟩
  | 61 => ⟨S100000x128, .f32⟩
  | 62 => ⟨S1700000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000x64, .f32⟩
  | 71 => ⟨S1x1600000, .i32⟩
  | 72 => ⟨S1600000, .i32⟩
  | 73 => ⟨S1x1600000, .i32⟩
  | 74 => ⟨S1600000, .i32⟩
  | 75 => ⟨S100000, .i32⟩
  | 76 => ⟨S1700000, .i32⟩
  | 77 => ⟨S1700000, .i32⟩
  | 78 => ⟨S_, .f32⟩
  | 79 => ⟨S1700000, .f32⟩
  | 80 => ⟨S_, .f32⟩
  | 81 => ⟨S100000, .f32⟩
  | 82 => ⟨S1700000x1, .i32⟩
  | 83 => ⟨S100000, .f32⟩
  | 84 => ⟨S_, .f32⟩
  | 85 => ⟨S100000, .f32⟩
  | 86 => ⟨S100000, .i1⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S1700000, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x64, .f32⟩
  | 120 => ⟨S1700000x1, .f32⟩
  | 121 => ⟨S1700000x64, .f32⟩
  | 122 => ⟨S1700000x64, .f32⟩
  | 123 => ⟨S_, .f32⟩
  | 124 => ⟨S100000x64, .f32⟩
  | 125 => ⟨S1700000x1, .i32⟩
  | 126 => ⟨S100000x64, .f32⟩
  | 127 => ⟨S1x64, .f32⟩
  | _ => ⟨S100000x256, .f32⟩

abbrev hbmTy0_1 (i : Nat) : BufTy := match i % 128 with
  | 0 => ⟨S100000x64, .f32⟩
  | 1 => ⟨S100000x64, .f32⟩
  | 2 => ⟨S1x200000, .i32⟩
  | 3 => ⟨S200000, .i32⟩
  | 4 => ⟨S1x200000, .i32⟩
  | 5 => ⟨S200000, .i32⟩
  | 6 => ⟨S_, .i32⟩
  | 7 => ⟨S200000, .i32⟩
  | 8 => ⟨S200000, .i1⟩
  | 9 => ⟨S_, .i32⟩
  | 10 => ⟨S200000, .i32⟩
  | 11 => ⟨S200000, .i32⟩
  | 12 => ⟨S200000, .i32⟩
  | 13 => ⟨S200000x1, .i32⟩
  | 14 => ⟨S200000x64, .f32⟩
  | 15 => ⟨S_, .i32⟩
  | 16 => ⟨S200000, .i32⟩
  | 17 => ⟨S200000, .i1⟩
  | 18 => ⟨S_, .i32⟩
  | 19 => ⟨S200000, .i32⟩
  | 20 => ⟨S200000, .i32⟩
  | 21 => ⟨S200000, .i32⟩
  | 22 => ⟨S200000x1, .i32⟩
  | 23 => ⟨S200000x64, .f32⟩
  | 24 => ⟨S200000x64, .f32⟩
  | 25 => ⟨S_, .f32⟩
  | 26 => ⟨S200000, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_17 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_c_20 : Ref sig .tc := ⟨.hbm, 134, rfl⟩
abbrev main_v99 : Ref sig .tc := ⟨.hbm, 135, rfl⟩
abbrev main_v100 : Ref sig .tc := ⟨.hbm, 136, rfl⟩
abbrev main_c_21 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_c_22 : Ref sig .tc := ⟨.hbm, 143, rfl⟩
abbrev main_v106 : Ref sig .tc := ⟨.hbm, 144, rfl⟩
abbrev main_v107 : Ref sig .tc := ⟨.hbm, 145, rfl⟩
abbrev main_c_23 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_24 : Ref sig .tc := ⟨.hbm, 153, rfl⟩
abbrev main_v114 : Ref sig .tc := ⟨.hbm, 154, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  reducesTo_S200000x64_S200000_d1 : S200000x64.ReducesTo [1] S200000
  h_S_ : 0 < S_.numel
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S200000x1_S200000x64_1_0_n_n_0_1_164_wf : GatherDims.WF S100000x64 S200000x1 S200000x64 [1] [0] [] [0] [] 1 ![1, 64]

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf

class Facts : Prop extends Facts₀ where

variable [Facts]
-- ==== Proof.WholeRun.lean ====
/-
  The kernel's run, with its result kept. The program is thirteen segments in a row: stretches of host operations, and
  three calls, each a pipeline over a grid. Running it from any memory with zero counters, every weakly fair execution
  terminates without a fault, and at the end every buffer that no scope hides holds what the fold of the segments over the
  launch memory says it holds: a host stretch rewrites the buffers its operations write and leaves the rest; a call
  leaves its result array at what its blocks' write-backs add up to and every other buffer as it found it. Read at the
  seven arguments that fold walks back to the launch memory (no segment writes an argument); read at the buffer the program
  returns it is the last valuation of the fold there, which the value proof opens segment by segment.
-/
import proofs.«173741_j21234318311808_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the returned buffer ends at the fold's last valuation and
    the seven arguments end as launched. -/
theorem run : θ_run defs (onTc (τ := τ) (main (F := F))) ⟨m, fun _ => 0, ρ⟩ (fun r => ∀ c : Dev nD,
      r.2.mem ((c.tc : Thread nD τ).loc main_v86) = W13 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v86 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c)⟩)

end Cert.KernelIdeal.WholeRun

end
-- ==== Proof.StagesA.lean ====
/-
  The stretch of host operations both programs share before the first dense layer, read on the kernel's side: from the
  edge list, the source and destination index vectors (each edge list row followed by 0 … 99999, the self-loops); the
  in-degree of every node (a scatter-add of ones along the destinations); its inverse square root where the degree is
  positive and zero elsewhere; and the per-edge normalisation, the product of that vector gathered at an edge's source and
  at its destination (an index below zero counted from the end). The kernel's program computes these once and the
  reference's program computes them, by the same operations in the same order, before each of its two layers; so each
  buffer of the kernel's run holds exactly the value the reference's text names at the corresponding operation. Stated
  buffer by buffer at the three boundaries of the stretch (before, inside and after the outlined select), each value read
  through one boundary at a time.
-/
import proofs.«173741_j21234318311808_1_alg».proof.Proof.Gen.KernelIdeal.Frame
import proofs.«173741_j21234318311808_1_alg».proof.Proof.RefRead
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

set_option maxHeartbeats 4000000 in
theorem src1 : W1 m ρ c (Proc.devRef .tc main_v5)
    = Cert.ReferenceIdeal.ReadP.val_main_v6 (F := Ideal) (m ((c : Thread nD τ).loc main_arg1)) := by
  dsimp only [W1]
  after_results_simp <;> rfl

set_option maxHeartbeats 4000000 in
theorem dst1 : W1 m ρ c (Proc.devRef .tc main_v6)
    = Cert.ReferenceIdeal.ReadP.val_main_v7 (F := Ideal) (m ((c : Thread nD τ).loc main_arg1)) := by
  dsimp only [W1]
  after_results_simp <;> rfl

set_option maxHeartbeats 4000000 in
theorem pos1 : W1 m ρ c (Proc.devRef .tc main_v12)
    = Cert.ReferenceIdeal.ReadP.val_main_v13 (F := Ideal) (m ((c : Thread nD τ).loc main_arg1)) := by
  dsimp only [W1]
  after_results_simp <;> rfl

set_option maxHeartbeats 4000000 in
theorem rs1 : W1 m ρ c (Proc.devRef .tc main_v13)
    = Cert.ReferenceIdeal.ReadP.val_main_v14 (F := Ideal) (m ((c : Thread nD τ).loc main_arg1)) := by
  dsimp only [W1]
  after_results_simp <;> rfl

set_option maxHeartbeats 4000000 in
theorem zero1 : W1 m ρ c (Proc.devRef .tc main_cst_2)
    = Cert.ReferenceIdeal.ReadP.val_main_cst_2 (F := Ideal) := by
  dsimp only [W1]
  after_results_simp <;> rfl

set_option maxHeartbeats 4000000 in
theorem a0_1 : W1 m ρ c (Proc.devRef .tc main_arg0)
    = (m ((c : Thread nD τ).loc main_arg0)) := by
  dsimp only [W1]
  after_results_simp <;> rfl

set_option maxHeartbeats 4000000 in
theorem a2_1 : W1 m ρ c (Proc.devRef .tc main_arg2)
    = (m ((c : Thread nD τ).loc main_arg2)) := by
  dsimp only [W1]
  after_results_simp <;> rfl

set_option maxHeartbeats 4000000 in
theorem a3_1 : W1 m ρ c (Proc.devRef .tc main_arg3)
    = (m ((c : Thread nD τ).loc main_arg3)) := by
  dsimp only [W1]
  after_results_simp <;> rfl

set_option maxHeartbeats 4000000 in
theorem a4_1 : W1 m ρ c (Proc.devRef .tc main_arg4)
    = (m ((c : Thread nD τ).loc main_arg4)) := by
  dsimp only [W1]
  after_results_simp <;> rfl

set_option maxHeartbeats 4000000 in
theorem a5_1 : W1 m ρ c (Proc.devRef .tc main_arg5)
    = (m ((c : Thread nD τ).loc main_arg5)) := by
  dsimp only [W1]
  after_results_simp <;> rfl

set_option maxHeartbeats 4000000 in
theorem a6_1 : W1 m ρ c (Proc.devRef .tc main_arg6)
    = (m ((c : Thread nD τ).loc main_arg6)) := by
  dsimp only [W1]
  after_results_simp <;> rfl

set_option maxHeartbeats 4000000 in
theorem where2 : W2 m ρ c (Proc.devRef .tc main_v14)
    = select (W1 m ρ c (Proc.devRef .tc main_v12)) (W1 m ρ c (Proc.devRef .tc main_v13))
        (broadcastInDim S100000 ![] bcast_S_S100000 (W1 m ρ c (Proc.devRef .tc main_cst_2))) := by
  show StableHlo.after hostOps0_1 (W1 m ρ c) (Proc.devRef .tc main_v14) = _
  generalize W1 m ρ c = B
  after_results_simp <;> rfl

set_option maxHeartbeats 4000000 in
theorem dinv2 : W2 m ρ c (Proc.devRef .tc main_v14)
    = Cert.ReferenceIdeal.ReadP.val_main_v15 (F := Ideal) (m ((c : Thread nD τ).loc main_arg1)) := by
  rw [where2 m ρ c, pos1 m ρ c, rs1 m ρ c, zero1 m ρ c]
  rfl

set_option maxHeartbeats 4000000 in
theorem src2 : W2 m ρ c (Proc.devRef .tc main_v5)
    = Cert.ReferenceIdeal.ReadP.val_main_v6 (F := Ideal) (m ((c : Thread nD τ).loc main_arg1)) := by
  have h := src1 m ρ c
  show StableHlo.after hostOps0_1 (W1 m ρ c) (Proc.devRef .tc main_v5) = _
  generalize W1 m ρ c = B at h ⊢
  after_results_simp
  exact h

set_option maxHeartbeats 4000000 in
theorem dst2 : W2 m ρ c (Proc.devRef .tc main_v6)
    = Cert.ReferenceIdeal.ReadP.val_main_v7 (F := Ideal) (m ((c : Thread nD τ).loc main_arg1)) := by
  have h := dst1 m ρ c
  show StableHlo.after hostOps0_1 (W1 m ρ c) (Proc.devRef .tc main_v6) = _
  generalize W1 m ρ c = B at h ⊢
  after_results_simp
  exact h

set_option maxHeartbeats 4000000 in
theorem a0_2 : W2 m ρ c (Proc.devRef .tc main_arg0)
    = (m ((c : Thread nD τ).loc main_arg0)) := by
  have h := a0_1 m ρ c
  show StableHlo.after hostOps0_1 (W1 m ρ c) (Proc.devRef .tc main_arg0) = _
  generalize W1 m ρ c = B at h ⊢
  after_results_simp
  exact h

set_option maxHeartbeats 4000000 in
theorem a2_2 : W2 m ρ c (Proc.devRef .tc main_arg2)
    = (m ((c : Thread nD τ).loc main_arg2)) := by
  have h := a2_1 m ρ c
  show StableHlo.after hostOps0_1 (W1 m ρ c) (Proc.devRef .tc main_arg2) = _
  generalize W1 m ρ c = B at h ⊢
  after_results_simp
  exact h

set_option maxHeartbeats 4000000 in
theorem a3_2 : W2 m ρ c (Proc.devRef .tc main_arg3)
    = (m ((c : Thread nD τ).loc main_arg3)) := by
  have h := a3_1 m ρ c
  show StableHlo.after hostOps0_1 (W1 m ρ c) (Proc.devRef .tc main_arg3) = _
  generalize W1 m ρ c = B at h ⊢
  after_results_simp
  exact h

set_option maxHeartbeats 4000000 in
theorem a4_2 : W2 m ρ c (Proc.devRef .tc main_arg4)
    = (m ((c : Thread nD τ).loc main_arg4)) := by
  have h := a4_1 m ρ c
  show StableHlo.after hostOps0_1 (W1 m ρ c) (Proc.devRef .tc main_arg4) = _
  generalize W1 m ρ c = B at h ⊢
  after_results_simp
  exact h

set_option maxHeartbeats 4000000 in
theorem a5_2 : W2 m ρ c (Proc.devRef .tc main_arg5)
    = (m ((c : Thread nD τ).loc main_arg5)) := by
  have h := a5_1 m ρ c
  show StableHlo.after hostOps0_1 (W1 m ρ c) (Proc.devRef .tc main_arg5) = _
  generalize W1 m ρ c = B at h ⊢
  after_results_simp
  exact h

set_option maxHeartbeats 4000000 in
theorem a6_2 : W2 m ρ c (Proc.devRef .tc main_arg6)
    = (m ((c : Thread nD τ).loc main_arg6)) := by
  have h := a6_1 m ρ c
  show StableHlo.after hostOps0_1 (W1 m ρ c) (Proc.devRef .tc main_arg6) = _
  generalize W1 m ρ c = B at h ⊢
  after_results_simp
  exact h

set_option maxHeartbeats 4000000 in
theorem norm3 : W3 m ρ c (Proc.devRef .tc main_v29)
    = Cert.ReferenceIdeal.ReadP.val_main_v30 (F := Ideal) (m ((c : Thread nD τ).loc main_arg1)) := by
  have h0 := dinv2 m ρ c
  have h1 := src2 m ρ c
  have h2 := dst2 m ρ c
  show StableHlo.after hostOps0_2 (W2 m ρ c) (Proc.devRef .tc main_v29) = _
  generalize W2 m ρ c = B at h0 h1 h2 ⊢
  after_results_simp
  rw [h0, h1, h2]
  rfl

set_option maxHeartbeats 4000000 in
theorem src3 : W3 m ρ c (Proc.devRef .tc main_v5)
    = Cert.ReferenceIdeal.ReadP.val_main_v6 (F := Ideal) (m ((c : Thread nD τ).loc main_arg1)) := by
  have h := src2 m ρ c
  show StableHlo.after hostOps0_2 (W2 m ρ c) (Proc.devRef .tc main_v5) = _
  generalize W2 m ρ c = B at h ⊢
  after_results_simp
  exact h

set_option maxHeartbeats 4000000 in
theorem dst3 : W3 m ρ c (Proc.devRef .tc main_v6)
    = Cert.ReferenceIdeal.ReadP.val_main_v7 (F := Ideal) (m ((c : Thread nD τ).loc main_arg1)) := by
  have h := dst2 m ρ c
  show StableHlo.after hostOps0_2 (W2 m ρ c) (Proc.devRef .tc main_v6) = _
  generalize W2 m ρ c = B at h ⊢
  after_results_simp
  exact h

set_option maxHeartbeats 4000000 in
theorem a0_3 : W3 m ρ c (Proc.devRef .tc main_arg0)
    = (m ((c : Thread nD τ).loc main_arg0)) := by
  have h := a0_2 m ρ c
  show StableHlo.after hostOps0_2 (W2 m ρ c) (Proc.devRef .tc main_arg0) = _
  generalize W2 m ρ c = B at h ⊢
  after_results_simp
  exact h

set_option maxHeartbeats 4000000 in
theorem a2_3 : W3 m ρ c (Proc.devRef .tc main_arg2)
    = (m ((c : Thread nD τ).loc main_arg2)) := by
  have h := a2_2 m ρ c
  show StableHlo.after hostOps0_2 (W2 m ρ c) (Proc.devRef .tc main_arg2) = _
  generalize W2 m ρ c = B at h ⊢
  after_results_simp
  exact h

set_option maxHeartbeats 4000000 in
theorem a3_3 : W3 m ρ c (Proc.devRef .tc main_arg3)
    = (m ((c : Thread nD τ).loc main_arg3)) := by
  have h := a3_2 m ρ c
  show StableHlo.after hostOps0_2 (W2 m ρ c) (Proc.devRef .tc main_arg3) = _
  generalize W2 m ρ c = B at h ⊢
  after_results_simp
  exact h

set_option maxHeartbeats 4000000 in
theorem a4_3 : W3 m ρ c (Proc.devRef .tc main_arg4)
    = (m ((c : Thread nD τ).loc main_arg4)) := by
  have h := a4_2 m ρ c
  show StableHlo.after hostOps0_2 (W2 m ρ c) (Proc.devRef .tc main_arg4) = _
  generalize W2 m ρ c = B at h ⊢
  after_results_simp
  exact h

set_option maxHeartbeats 4000000 in
theorem a5_3 : W3 m ρ c (Proc.devRef .tc main_arg5)
    = (m ((c : Thread nD τ).loc main_arg5)) := by
  have h := a5_2 m ρ c
  show StableHlo.after hostOps0_2 (W2 m ρ c) (Proc.devRef .tc main_arg5) = _
  generalize W2 m ρ c = B at h ⊢
  after_results_simp
  exact h

set_option maxHeartbeats 4000000 in
theorem a6_3 : W3 m ρ c (Proc.devRef .tc main_arg6)
    = (m ((c : Thread nD τ).loc main_arg6)) := by
  have h := a6_2 m ρ c
  show StableHlo.after hostOps0_2 (W2 m ρ c) (Proc.devRef .tc main_arg6) = _
  generalize W2 m ρ c = B at h ⊢
  after_results_simp
  exact h

end Cert.KernelIdeal.Stages

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.Spec.lean ====
/-
  The two whole-array functions this program is made of, on the extended reals.

  `rowsByCols a b` is the rows-by-columns product of an [M, K] array with a [K, N] array: entry (i, j) is the
  sum over k of a(i, k) · b(k, j). `rowDots a b` pairs two [E, D] arrays row by row: entry e is the sum over d of
  a(e, d) · b(e, d). Both are plain finite sums of products, so neither depends on the order or the grouping in
  which a program adds the terms up, nor on how it tiles the rows: addition of extended reals is commutative and
  associative (only distributivity and cancellation need finite entries, and nothing here uses them).
-/
import Mathlib
import Idealize.ShloMosaic.Lib.ValueIdx
import Idealize.ShloMosaic.PureOps.Ideal

noncomputable section

namespace Cert.Spec

open Idealize.ShloMosaic Idealize.ShloMosaic.ValueIdx

/-- Entry (i, j) of the product: the sum over the shared axis of row i of `a` against column j of `b`. -/
def rowsByCols {M K N : Nat} (a : FVec Ideal ⟨2, ![M, K]⟩ .f32) (b : FVec Ideal ⟨2, ![K, N]⟩ .f32) :
    FVec Ideal ⟨2, ![M, N]⟩ .f32 :=
  fun i => ∑ k : Fin K, a (ix2 (⟨(i 0).val, idx2_lt0 i⟩ : Fin M) k) * b (ix2 k (⟨(i 1).val, idx2_lt1 i⟩ : Fin N))

theorem rowsByCols_ix2 {M K N : Nat} (a : FVec Ideal ⟨2, ![M, K]⟩ .f32) (b : FVec Ideal ⟨2, ![K, N]⟩ .f32)
    (r : Fin M) (c : Fin N) : rowsByCols a b (ix2 r c) = ∑ k : Fin K, a (ix2 r k) * b (ix2 k c) := rfl

/-- Entry e of the row pairing: the sum along row e of the entrywise products. -/
def rowDots {E D : Nat} (a b : FVec Ideal ⟨2, ![E, D]⟩ .f32) : FVec Ideal ⟨1, ![E]⟩ .f32 :=
  fun i => ∑ d : Fin D, a (ix2 (⟨(i 0).val, (i 0).isLt⟩ : Fin E) d) * b (ix2 (⟨(i 0).val, (i 0).isLt⟩ : Fin E) d)

theorem rowDots_ix1 {E D : Nat} (a b : FVec Ideal ⟨2, ![E, D]⟩ .f32) (e : Fin E) :
    rowDots a b (ix1 e) = ∑ d : Fin D, a (ix2 e d) * b (ix2 e d) := rfl

end Cert.Spec

end
-- ==== Proof.FirstProduct.lean ====
/-
  The first dense layer's product, x · W1. The call tiles the 100000 rows of its left operand in 20 blocks of 5000 rows and keeps the whole
  256×128 right operand resident. At block t the body multiplies rows 5000·t … 5000·t + 4999 of the left operand by
  the right operand — a product into a zero accumulator; narrowing both operands to bf16 first is the identity on the
  extended reals — and the block is written back to rows 5000·t … 5000·t + 4999 of the result.

  Entry (r, q) of a block's product is the sum over k of (row r of the block)(k) · (column q of the right operand)(k): it
  reads row 5000·t + r of the left array and column q of the right array and nothing else. So what block t writes back is
  block t of ONE function of the two whole arrays, their rows-by-columns product; the 20 blocks tile the result's rows
  (row i lies in block i / 5000), so the result array ends holding that product.
-/
import proofs.«173741_j21234318311808_1_alg».proof.Proof.Gen.KernelIdeal.Frame
import proofs.«173741_j21234318311808_1_alg».proof.Proof.LibDot
import proofs.«173741_j21234318311808_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.FirstProduct

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The body's product contracts axis 1 of its left operand with axis 0 of its right operand, and nothing else. -/
theorem plain : Cert.LibDot.Plain dot_S5000x256_S256x128_S5000x128_1_0_0_1_n_n where
  hrank := rfl
  hs := rfl
  hl0 := fun j k => by
    unfold DotDims.lhsIdx
    rw [dif_neg (show ¬(0 : Fin S5000x256.rank) ∈ dot_S5000x256_S256x128_S5000x128_1_0_0_1_n_n.lhsBatch by decide),
      dif_pos (show (0 : Fin S5000x256.rank) ∈ dot_S5000x256_S256x128_S5000x128_1_0_0_1_n_n.lhsNonContracting by decide)]
    rfl
  hl1 := fun j k => dot_S5000x256_S256x128_S5000x128_1_0_0_1_n_n.lhsIdx_val_of_single rfl j k
  hr0 := fun j k => dot_S5000x256_S256x128_S5000x128_1_0_0_1_n_n.rhsIdx_val_of_single rfl j k
  hr1 := fun j k => by
    unfold DotDims.rhsIdx
    rw [dif_neg (show ¬(1 : Fin S256x128.rank) ∈ dot_S5000x256_S256x128_S5000x128_1_0_0_1_n_n.rhsBatch by decide),
      dif_pos (show (1 : Fin S256x128.rank) ∈ dot_S5000x256_S256x128_S5000x128_1_0_0_1_n_n.rhsNonContracting by decide)]
    rfl

/-- Entry (r, q) of what the body stores: row r of the left block against column q of the right operand. -/
theorem body_entry (x0 : FVec Ideal S5000x256 .f32) (x1 : FVec Ideal S256x128 .f32) (r : Fin 5000) (q : Fin 128) :
    k0_pay1 x0 x1 (ix2 r q) = ∑ k : Fin 256, x0 (ix2 r k) * x1 (ix2 k q) := by
  unfold k0_pay1
  exact Cert.LibDot.matmul_ix2 plain none _ _ r q

theorem origin : (![0, 0] : Fin 2 → Nat) = fun _ => 0 := funext fun a => by fin_cases a <;> rfl

/-- The three index maps over the grid: the left operand's and the result's blocks move down the rows with the point,
    the right operand stays. -/
theorem maps : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 :=
  (by decide +kernel : ∀ t : Fin grid0.N, _)

/-- Every block of rows is some point's. -/
theorem onto : ∀ q : Fin 20, ∃ t : Fin cfg0.N, win0_2.index t = ![q.val, 0] :=
  (by decide +kernel : ∀ q : Fin 20, ∃ t : Fin grid0.N, win0_2.index t = ![q.val, 0])

/-- What point t writes back is block t of the product of the two arrays as the call finds them. -/
theorem block_written (c : Dev nD) (t : Fin cfg0.N) :
    (dat0 V c).flushed 2 t = ((cfg0.win 2).blk t).view.read (Elt Ideal)
      (Cert.Spec.rowsByCols (M := 100000) (K := 256) (N := 128) (V c main_arg0) (V c main_arg3)) := by
  show (cfg0.win 2).cut (grid0.coords t) ((dat0 V c).after 2 t) = _
  rw [after0_2]
  unfold out0_2
  rw [View.canon_unit_zero origin]
  simp only [View.ld_unit_zero (S := S5000x256) origin, View.ld_unit_zero (S := S256x128) origin]
  obtain ⟨e0, e1, e2, e3, e4⟩ := maps t
  funext j
  obtain ⟨r, q, rfl⟩ : ∃ (r : Fin 5000) (q : Fin 128), j = ix2 r q := ⟨j 0, j 1, eq_ix2 j⟩
  refine (body_entry _ _ r q).trans ?_
  show _ = Cert.Spec.rowsByCols (M := 100000) (K := 256) (N := 128) (V c main_arg0) (V c main_arg3)
    (((cfg0.win 2).blk t).view.emb (ix2 r q))
  unfold Cert.Spec.rowsByCols
  show _ = ∑ k : Fin 256, _
  refine Finset.sum_congr rfl fun k _ => ?_
  have hl : ((cfg0.win 0).blk t).view.emb (ix2 r k)
      = ix2 (⟨((((cfg0.win 2).blk t).view.emb (ix2 r q)) 0).val, idx2_lt0 _⟩ : Fin 100000) k := by
    funext a; apply Fin.ext
    match a with
    | ⟨0, _⟩ => show win0_0.index t (0 : Fin 2) * 5000 + 1 * r.val = win0_2.index t (0 : Fin 2) * 5000 + 1 * r.val; omega
    | ⟨1, _⟩ => show win0_0.index t (1 : Fin 2) * 256 + 1 * k.val = k.val; omega
  have hr : ((cfg0.win 1).blk t).view.emb (ix2 k q)
      = ix2 k (⟨((((cfg0.win 2).blk t).view.emb (ix2 r q)) 1).val, idx2_lt1 _⟩ : Fin 128) := by
    funext a; apply Fin.ext
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega
  exact congrArg₂ (· * ·)
    (congrArg (V c main_arg0 : S100000x256.Idx → EReal) hl)
    (congrArg (V c main_arg3 : S256x128.Idx → EReal) hr)

/-- An index of the result is in point t's block iff each coordinate is in the block's range on its axis. -/
theorem mem_block (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- Row i of the result lies in block i / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the call: the product of the two arrays as the call found them. -/
theorem result (c : Dev nD) : (dat0 V c).arrAt 2 cfg0.N
    = Cert.Spec.rowsByCols (M := 100000) (K := 256) (N := 128) (V c main_arg0) (V c main_arg3) :=
  (dat0 V c).arrAt_eq_of_cover 2 _ (fun t _ => block_written V c t) cover

end Cert.KernelIdeal.FirstProduct

end
-- ==== Proof.SecondProduct.lean ====
/-
  The second dense layer's product, h · W2. The call tiles the 100000 rows of its left operand in 20 blocks of 5000 rows and keeps the whole
  128×64 right operand resident. At block t the body multiplies rows 5000·t … 5000·t + 4999 of the left operand by
  the right operand — a product into a zero accumulator; narrowing both operands to bf16 first is the identity on the
  extended reals — and the block is written back to rows 5000·t … 5000·t + 4999 of the result.

  Entry (r, q) of a block's product is the sum over k of (row r of the block)(k) · (column q of the right operand)(k): it
  reads row 5000·t + r of the left array and column q of the right array and nothing else. So what block t writes back is
  block t of ONE function of the two whole arrays, their rows-by-columns product; the 20 blocks tile the result's rows
  (row i lies in block i / 5000), so the result array ends holding that product.
-/
import proofs.«173741_j21234318311808_1_alg».proof.Proof.Gen.KernelIdeal.Frame
import proofs.«173741_j21234318311808_1_alg».proof.Proof.LibDot
import proofs.«173741_j21234318311808_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.SecondProduct

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The body's product contracts axis 1 of its left operand with axis 0 of its right operand, and nothing else. -/
theorem plain : Cert.LibDot.Plain dot_S5000x128_S128x64_S5000x64_1_0_0_1_n_n where
  hrank := rfl
  hs := rfl
  hl0 := fun j k => by
    unfold DotDims.lhsIdx
    rw [dif_neg (show ¬(0 : Fin S5000x128.rank) ∈ dot_S5000x128_S128x64_S5000x64_1_0_0_1_n_n.lhsBatch by decide),
      dif_pos (show (0 : Fin S5000x128.rank) ∈ dot_S5000x128_S128x64_S5000x64_1_0_0_1_n_n.lhsNonContracting by decide)]
    rfl
  hl1 := fun j k => dot_S5000x128_S128x64_S5000x64_1_0_0_1_n_n.lhsIdx_val_of_single rfl j k
  hr0 := fun j k => dot_S5000x128_S128x64_S5000x64_1_0_0_1_n_n.rhsIdx_val_of_single rfl j k
  hr1 := fun j k => by
    unfold DotDims.rhsIdx
    rw [dif_neg (show ¬(1 : Fin S128x64.rank) ∈ dot_S5000x128_S128x64_S5000x64_1_0_0_1_n_n.rhsBatch by decide),
      dif_pos (show (1 : Fin S128x64.rank) ∈ dot_S5000x128_S128x64_S5000x64_1_0_0_1_n_n.rhsNonContracting by decide)]
    rfl

/-- Entry (r, q) of what the body stores: row r of the left block against column q of the right operand. -/
theorem body_entry (x0 : FVec Ideal S5000x128 .f32) (x1 : FVec Ideal S128x64 .f32) (r : Fin 5000) (q : Fin 64) :
    k1_pay1 x0 x1 (ix2 r q) = ∑ k : Fin 128, x0 (ix2 r k) * x1 (ix2 k q) := by
  unfold k1_pay1
  refine (Cert.LibDot.matmul_ix2 plain none _ _ r q).trans ?_
  refine Finset.sum_congr rfl fun k _ => ?_
  exact congrArg (· * x1 (ix2 k q)) (congrFun (shapeCast_self x0 shapeCasts_S5000x128_S5000x128) (ix2 r k))

theorem origin : (![0, 0] : Fin 2 → Nat) = fun _ => 0 := funext fun a => by fin_cases a <;> rfl

/-- The three index maps over the grid: the left operand's and the result's blocks move down the rows with the point,
    the right operand stays. -/
theorem maps : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (1 : Fin 2) = 0 :=
  (by decide +kernel : ∀ t : Fin grid1.N, _)

/-- Every block of rows is some point's. -/
theorem onto : ∀ q : Fin 20, ∃ t : Fin cfg1.N, win1_2.index t = ![q.val, 0] :=
  (by decide +kernel : ∀ q : Fin 20, ∃ t : Fin grid1.N, win1_2.index t = ![q.val, 0])

/-- What point t writes back is block t of the product of the two arrays as the call finds them. -/
theorem block_written (c : Dev nD) (t : Fin cfg1.N) :
    (dat1 V c).flushed 2 t = ((cfg1.win 2).blk t).view.read (Elt Ideal)
      (Cert.Spec.rowsByCols (M := 100000) (K := 128) (N := 64) (V c main_v47) (V c main_arg5)) := by
  show (cfg1.win 2).cut (grid1.coords t) ((dat1 V c).after 2 t) = _
  rw [after1_2]
  unfold out1_2
  rw [View.canon_unit_zero origin]
  simp only [View.ld_unit_zero (S := S5000x128) origin, View.ld_unit_zero (S := S128x64) origin]
  obtain ⟨e0, e1, e2, e3, e4⟩ := maps t
  funext j
  obtain ⟨r, q, rfl⟩ : ∃ (r : Fin 5000) (q : Fin 64), j = ix2 r q := ⟨j 0, j 1, eq_ix2 j⟩
  refine (body_entry _ _ r q).trans ?_
  show _ = Cert.Spec.rowsByCols (M := 100000) (K := 128) (N := 64) (V c main_v47) (V c main_arg5)
    (((cfg1.win 2).blk t).view.emb (ix2 r q))
  unfold Cert.Spec.rowsByCols
  show _ = ∑ k : Fin 128, _
  refine Finset.sum_congr rfl fun k _ => ?_
  have hl : ((cfg1.win 0).blk t).view.emb (ix2 r k)
      = ix2 (⟨((((cfg1.win 2).blk t).view.emb (ix2 r q)) 0).val, idx2_lt0 _⟩ : Fin 100000) k := by
    funext a; apply Fin.ext
    match a with
    | ⟨0, _⟩ => show win1_0.index t (0 : Fin 2) * 5000 + 1 * r.val = win1_2.index t (0 : Fin 2) * 5000 + 1 * r.val; omega
    | ⟨1, _⟩ => show win1_0.index t (1 : Fin 2) * 128 + 1 * k.val = k.val; omega
  have hr : ((cfg1.win 1).blk t).view.emb (ix2 k q)
      = ix2 k (⟨((((cfg1.win 2).blk t).view.emb (ix2 r q)) 1).val, idx2_lt1 _⟩ : Fin 64) := by
    funext a; apply Fin.ext
    match a with
    | ⟨0, _⟩ => show win1_1.index t (0 : Fin 2) * 128 + 1 * k.val = k.val; omega
    | ⟨1, _⟩ => show win1_1.index t (1 : Fin 2) * 64 + 1 * q.val = win1_2.index t (1 : Fin 2) * 64 + 1 * q.val; omega
  exact congrArg₂ (· * ·)
    (congrArg (V c main_v47 : S100000x128.Idx → EReal) hl)
    (congrArg (V c main_arg5 : S128x64.Idx → EReal) hr)

/-- An index of the result is in point t's block iff each coordinate is in the block's range on its axis. -/
theorem mem_block (t : Fin cfg1.N) (i : S100000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v48).slice (win1_2.rect t)).set ↔ _
  rw [View.set_slice_whole, Rect.mem_set_unit]
  exact Iff.rfl

/-- Row i of the result lies in block i / 5000. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The result array after the call: the product of the two arrays as the call found them. -/
theorem result (c : Dev nD) : (dat1 V c).arrAt 2 cfg1.N
    = Cert.Spec.rowsByCols (M := 100000) (K := 128) (N := 64) (V c main_v47) (V c main_arg5) :=
  (dat1 V c).arrAt_eq_of_cover 2 _ (fun t _ => block_written V c t) cover

end Cert.KernelIdeal.SecondProduct

end
-- ==== Proof.RefAgainstSpec.lean ====
/-
  The reference's side of the three places where the two programs differ in text. Its two dense layers are host products
  contracting the left operand's columns with the right operand's rows, and read at an entry each is the sum over the
  shared axis of row times column: the rows-by-columns product. Its last operation multiplies the two gathered embeddings
  entry by entry and sums each row from zero: the row-by-row pairing (0 + s = s on the extended reals).
-/
import proofs.«173741_j21234318311808_1_alg».proof.Proof.RefRead
import proofs.«173741_j21234318311808_1_alg».proof.Proof.Spec
import Idealize.ShloMosaic.Lib.ValueIdx
import Idealize.ShloMosaic.PureOps.Ideal.Laws

set_option maxRecDepth 16384

noncomputable section

namespace Cert.ReferenceIdeal.AgainstSpec

open Cert.ReferenceIdeal Cert.ReferenceIdeal.ReadP Idealize.ShloMosaic Idealize.ShloMosaic.ValueIdx

/-- The first layer's host product is the rows-by-columns product. -/
theorem first_product (x0 : (⟨S100000x256, .f32⟩ : BufTy).Contents (Elt Ideal)) (x3 : (⟨S256x128, .f32⟩ : BufTy).Contents (Elt Ideal)) :
    val_main_v0 (F := Ideal) x0 x3 = Cert.Spec.rowsByCols (M := 100000) (K := 256) (N := 128) x0 x3 := by
  funext i
  rw [val_main_v0_apply]
  show _ = ∑ k : Fin 256, _
  refine Finset.sum_congr rfl fun k _ => ?_
  exact congrArg₂ (· * ·)
    (congrArg x0 (funext fun a => Fin.ext (by match a with | ⟨0, _⟩ => rfl | ⟨1, _⟩ => rfl)))
    (congrArg x3 (funext fun a => Fin.ext (by match a with | ⟨0, _⟩ => rfl | ⟨1, _⟩ => rfl)))

/-- The second layer's host product is the rows-by-columns product of the hidden layer with the second weight. -/
theorem second_product (x0 : (⟨S100000x256, .f32⟩ : BufTy).Contents (Elt Ideal)) (x1 : (⟨S2x1600000, .i32⟩ : BufTy).Contents (Elt Ideal)) (x3 : (⟨S256x128, .f32⟩ : BufTy).Contents (Elt Ideal)) (x4 : (⟨S128, .f32⟩ : BufTy).Contents (Elt Ideal)) (x5 : (⟨S128x64, .f32⟩ : BufTy).Contents (Elt Ideal)) :
    val_main_v48 (F := Ideal) x0 x1 x3 x4 x5
      = Cert.Spec.rowsByCols (M := 100000) (K := 128) (N := 64) (val_main_v47 (F := Ideal) x0 x1 x3 x4) x5 := by
  funext i
  rw [val_main_v48_apply]
  show _ = ∑ k : Fin 128, _
  refine Finset.sum_congr rfl fun k _ => ?_
  exact congrArg₂ (· * ·)
    (congrArg (val_main_v47 (F := Ideal) x0 x1 x3 x4) (funext fun a => Fin.ext (by match a with | ⟨0, _⟩ => rfl | ⟨1, _⟩ => rfl)))
    (congrArg x5 (funext fun a => Fin.ext (by match a with | ⟨0, _⟩ => rfl | ⟨1, _⟩ => rfl)))

/-- The reference's result is the row-by-row pairing of the two gathered embeddings. -/
theorem scores (x0 : (⟨S100000x256, .f32⟩ : BufTy).Contents (Elt Ideal)) (x1 : (⟨S2x1600000, .i32⟩ : BufTy).Contents (Elt Ideal)) (x2 : (⟨S2x200000, .i32⟩ : BufTy).Contents (Elt Ideal)) (x3 : (⟨S256x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) :
    val_main_v114 (F := Ideal) x0 x1 x2 x3 x4 x5 x6
      = Cert.Spec.rowDots (E := 200000) (D := 64) (val_main_v105 (F := Ideal) x0 x1 x2 x3 x4 x5 x6)
          (val_main_v112 (F := Ideal) x0 x1 x2 x3 x4 x5 x6) := by
  funext i
  rw [val_main_v114_apply, val_main_cst_24_apply, Ideal.ofBits_def, Ideal.ofBits_zero_f32, zero_add]
  show _ = ∑ d : Fin 64, _
  refine Finset.sum_congr rfl fun d _ => ?_
  rw [val_main_v113_apply]
  exact congrArg₂ (· * ·)
    (congrArg (val_main_v105 (F := Ideal) x0 x1 x2 x3 x4 x5 x6) (funext fun a => Fin.ext (by match a with | ⟨0, _⟩ => rfl | ⟨1, _⟩ => rfl)))
    (congrArg (val_main_v112 (F := Ideal) x0 x1 x2 x3 x4 x5 x6) (funext fun a => Fin.ext (by match a with | ⟨0, _⟩ => rfl | ⟨1, _⟩ => rfl)))

end Cert.ReferenceIdeal.AgainstSpec

end
-- ==== Proof.StagesB.lean ====
/-
  The two dense layers, read on the kernel's side. The first call leaves the rows-by-columns product of `x` with the first
  weight in its result array, and the reference's host product is that same function of the two arrays. The stretch that
  follows — gather the product's rows at the edges' sources, scale each row by its edge's normalisation, scatter-add the
  rows at the destinations, add the bias, clamp at zero — is operation for operation the reference's text over the same
  index vectors and the same normalisation, so the hidden layer's buffer holds the reference's hidden layer. The second
  call multiplies the hidden layer by the second weight, again as one rows-by-columns product, which is the reference's
  second host product of the same hidden layer. Nothing here uses a law of arithmetic beyond "a sum of products is a sum
  of products": the regrouping of the product's terms by blocks of rows never splits a single entry's sum.
-/
import proofs.«173741_j21234318311808_1_alg».proof.Proof.StagesA
import proofs.«173741_j21234318311808_1_alg».proof.Proof.FirstProduct
import proofs.«173741_j21234318311808_1_alg».proof.Proof.SecondProduct
import proofs.«173741_j21234318311808_1_alg».proof.Proof.RefAgainstSpec

set_option maxRecDepth 16384

noncomputable section

namespace Cert.KernelIdeal.Stages

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

theorem xw4 : W4 m ρ c (Proc.devRef .tc main_v30)
    = Cert.ReferenceIdeal.ReadP.val_main_v0 (F := Ideal) (m ((c : Thread nD τ).loc main_arg0)) (m ((c : Thread nD τ).loc main_arg3)) := by
  refine (W4_arr m ρ c 2).trans ?_
  refine (Cert.KernelIdeal.FirstProduct.result (V3 m ρ) c).trans ?_
  have e0 : V3 m ρ c main_arg0 = (m ((c : Thread nD τ).loc main_arg0)) := a0_3 m ρ c
  have e3 : V3 m ρ c main_arg3 = (m ((c : Thread nD τ).loc main_arg3)) := a3_3 m ρ c
  rw [e0, e3]
  exact (Cert.ReferenceIdeal.AgainstSpec.first_product _ _).symm

theorem src4 : W4 m ρ c (Proc.devRef .tc main_v5)
    = Cert.ReferenceIdeal.ReadP.val_main_v6 (F := Ideal) (m ((c : Thread nD τ).loc main_arg1)) :=
  (W4_of_ne m ρ c main_v5 (by decide)).trans (src3 m ρ c)

theorem dst4 : W4 m ρ c (Proc.devRef .tc main_v6)
    = Cert.ReferenceIdeal.ReadP.val_main_v7 (F := Ideal) (m ((c : Thread nD τ).loc main_arg1)) :=
  (W4_of_ne m ρ c main_v6 (by decide)).trans (dst3 m ρ c)

theorem norm4 : W4 m ρ c (Proc.devRef .tc main_v29)
    = Cert.ReferenceIdeal.ReadP.val_main_v30 (F := Ideal) (m ((c : Thread nD τ).loc main_arg1)) :=
  (W4_of_ne m ρ c main_v29 (by decide)).trans (norm3 m ρ c)

theorem a2_4 : W4 m ρ c (Proc.devRef .tc main_arg2)
    = (m ((c : Thread nD τ).loc main_arg2)) :=
  (W4_of_ne m ρ c main_arg2 (by decide)).trans (a2_3 m ρ c)

theorem a4_4 : W4 m ρ c (Proc.devRef .tc main_arg4)
    = (m ((c : Thread nD τ).loc main_arg4)) :=
  (W4_of_ne m ρ c main_arg4 (by decide)).trans (a4_3 m ρ c)

theorem a5_4 : W4 m ρ c (Proc.devRef .tc main_arg5)
    = (m ((c : Thread nD τ).loc main_arg5)) :=
  (W4_of_ne m ρ c main_arg5 (by decide)).trans (a5_3 m ρ c)

theorem a6_4 : W4 m ρ c (Proc.devRef .tc main_arg6)
    = (m ((c : Thread nD τ).loc main_arg6)) :=
  (W4_of_ne m ρ c main_arg6 (by decide)).trans (a6_3 m ρ c)

set_option maxHeartbeats 4000000 in
theorem pre5 : W5 m ρ c (Proc.devRef .tc main_v46)
    = Cert.ReferenceIdeal.ReadP.val_main_v46 (F := Ideal) (m ((c : Thread nD τ).loc main_arg0)) (m ((c : Thread nD τ).loc main_arg1)) (m ((c : Thread nD τ).loc main_arg3)) (m ((c : Thread nD τ).loc main_arg4)) := by
  have h0 := xw4 m ρ c
  have h1 := src4 m ρ c
  have h2 := dst4 m ρ c
  have h3 := norm4 m ρ c
  have h4 := a4_4 m ρ c
  show StableHlo.after hostOps1 (W4 m ρ c) (Proc.devRef .tc main_v46) = _
  generalize W4 m ρ c = B at h0 h1 h2 h3 h4 ⊢
  after_results_simp
  rw [h0, h1, h2, h3, h4]
  rfl

set_option maxHeartbeats 4000000 in
theorem src5 : W5 m ρ c (Proc.devRef .tc main_v5)
    = Cert.ReferenceIdeal.ReadP.val_main_v6 (F := Ideal) (m ((c : Thread nD τ).loc main_arg1)) := by
  have h := src4 m ρ c
  show StableHlo.after hostOps1 (W4 m ρ c) (Proc.devRef .tc main_v5) = _
  generalize W4 m ρ c = B at h ⊢
  after_results_simp
  exact h

set_option maxHeartbeats 4000000 in
theorem dst5 : W5 m ρ c (Proc.devRef .tc main_v6)
    = Cert.ReferenceIdeal.ReadP.val_main_v7 (F := Ideal) (m ((c : Thread nD τ).loc main_arg1)) := by
  have h := dst4 m ρ c
  show StableHlo.after hostOps1 (W4 m ρ c) (Proc.devRef .tc main_v6) = _
  generalize W4 m ρ c = B at h ⊢
  after_results_simp
  exact h

set_option maxHeartbeats 4000000 in
theorem norm5 : W5 m ρ c (Proc.devRef .tc main_v29)
    = Cert.ReferenceIdeal.ReadP.val_main_v30 (F := Ideal) (m ((c : Thread nD τ).loc main_arg1)) := by
  have h := norm4 m ρ c
  show StableHlo.after hostOps1 (W4 m ρ c) (Proc.devRef .tc main_v29) = _
  generalize W4 m ρ c = B at h ⊢
  after_results_simp
  exact h

set_option maxHeartbeats 4000000 in
theorem a2_5 : W5 m ρ c (Proc.devRef .tc main_arg2)
    = (m ((c : Thread nD τ).loc main_arg2)) := by
  have h := a2_4 m ρ c
  show StableHlo.after hostOps1 (W4 m ρ c) (Proc.devRef .tc main_arg2) = _
  generalize W4 m ρ c = B at h ⊢
  after_results_simp
  exact h

set_option maxHeartbeats 4000000 in
theorem a5_5 : W5 m ρ c (Proc.devRef .tc main_arg5)
    = (m ((c : Thread nD τ).loc main_arg5)) := by
  have h := a5_4 m ρ c
  show StableHlo.after hostOps1 (W4 m ρ c) (Proc.devRef .tc main_arg5) = _
  generalize W4 m ρ c = B at h ⊢
  after_results_simp
  exact h

set_option maxHeartbeats 4000000 in
theorem a6_5 : W5 m ρ c (Proc.devRef .tc main_arg6)
    = (m ((c : Thread nD τ).loc main_arg6)) := by
  have h := a6_4 m ρ c
  show StableHlo.after hostOps1 (W4 m ρ c) (Proc.devRef .tc main_arg6) = _
  generalize W4 m ρ c = B at h ⊢
  after_results_simp
  exact h

set_option maxHeartbeats 4000000 in
theorem relu6 : W6 m ρ c (Proc.devRef .tc main_v47)
    = maximumf (W5 m ρ c (Proc.devRef .tc main_v46))
        (broadcastInDim S100000x128 ![] bcast_S_S100000x128 (constant (F := Ideal) S_ .f32 0x00000000#32)) := by
  show StableHlo.after hostOps1_1 (W5 m ρ c) (Proc.devRef .tc main_v47) = _
  generalize W5 m ρ c = B
  after_results_simp <;> rfl

set_option maxHeartbeats 4000000 in
theorem hid6 : W6 m ρ c (Proc.devRef .tc main_v47)
    = Cert.ReferenceIdeal.ReadP.val_main_v47 (F := Ideal) (m ((c : Thread nD τ).loc main_arg0)) (m ((c : Thread nD τ).loc main_arg1)) (m ((c : Thread nD τ).loc main_arg3)) (m ((c : Thread nD τ).loc main_arg4)) := by
  rw [relu6 m ρ c, pre5 m ρ c]
  rfl

set_option maxHeartbeats 4000000 in
theorem src6 : W6 m ρ c (Proc.devRef .tc main_v5)
    = Cert.ReferenceIdeal.ReadP.val_main_v6 (F := Ideal) (m ((c : Thread nD τ).loc main_arg1)) := by
  have h := src5 m ρ c
  show StableHlo.after hostOps1_1 (W5 m ρ c) (Proc.devRef .tc main_v5) = _
  generalize W5 m ρ c = B at h ⊢
  after_results_simp
  exact h

set_option maxHeartbeats 4000000 in
theorem dst6 : W6 m ρ c (Proc.devRef .tc main_v6)
    = Cert.ReferenceIdeal.ReadP.val_main_v7 (F := Ideal) (m ((c : Thread nD τ).loc main_arg1)) := by
  have h := dst5 m ρ c
  show StableHlo.after hostOps1_1 (W5 m ρ c) (Proc.devRef .tc main_v6) = _
  generalize W5 m ρ c = B at h ⊢
  after_results_simp
  exact h

set_option maxHeartbeats 4000000 in
theorem norm6 : W6 m ρ c (Proc.devRef .tc main_v29)
    = Cert.ReferenceIdeal.ReadP.val_main_v30 (F := Ideal) (m ((c : Thread nD τ).loc main_arg1)) := by
  have h := norm5 m ρ c
  show StableHlo.after hostOps1_1 (W5 m ρ c) (Proc.devRef .tc main_v29) = _
  generalize W5 m ρ c = B at h ⊢
  after_results_simp
  exact h

set_option maxHeartbeats 4000000 in
theorem a2_6 : W6 m ρ c (Proc.devRef .tc main_arg2)
    = (m ((c : Thread nD τ).loc main_arg2)) := by
  have h := a2_5 m ρ c
  show StableHlo.after hostOps1_1 (W5 m ρ c) (Proc.devRef .tc main_arg2) = _
  generalize W5 m ρ c = B at h ⊢
  after_results_simp
  exact h

set_option maxHeartbeats 4000000 in
theorem a5_6 : W6 m ρ c (Proc.devRef .tc main_arg5)
    = (m ((c : Thread nD τ).loc main_arg5)) := by
  have h := a5_5 m ρ c
  show StableHlo.after hostOps1_1 (W5 m ρ c) (Proc.devRef .tc main_arg5) = _
  generalize W5 m ρ c = B at h ⊢
  after_results_simp
  exact h

set_option maxHeartbeats 4000000 in
theorem a6_6 : W6 m ρ c (Proc.devRef .tc main_arg6)
    = (m ((c : Thread nD τ).loc main_arg6)) := by
  have h := a6_5 m ρ c
  show StableHlo.after hostOps1_1 (W5 m ρ c) (Proc.devRef .tc main_arg6) = _
  generalize W5 m ρ c = B at h ⊢
  after_results_simp
  exact h

theorem hw7 : W7 m ρ c (Proc.devRef .tc main_v48)
    = Cert.ReferenceIdeal.ReadP.val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W7_arr m ρ c 2).trans ?_
  refine (Cert.KernelIdeal.SecondProduct.result (V6 m ρ) c).trans ?_
  have e0 : V6 m ρ c main_v47 = Cert.ReferenceIdeal.ReadP.val_main_v47 (F := Ideal) (m ((c : Thread nD τ).loc main_arg0)) (m ((c : Thread nD τ).loc main_arg1)) (m ((c : Thread nD τ).loc main_arg3)) (m ((c : Thread nD τ).loc main_arg4)) := hid6 m ρ c
  have e5 : V6 m ρ c main_arg5 = (m ((c : Thread nD τ).loc main_arg5)) := a5_6 m ρ c
  rw [e0, e5]
  exact (Cert.ReferenceIdeal.AgainstSpec.second_product _ _ _ _ _).symm

theorem src7 : W7 m ρ c (Proc.devRef .tc main_v5)
    = Cert.ReferenceIdeal.ReadP.val_main_v6 (F := Ideal) (m ((c : Thread nD τ).loc main_arg1)) :=
  (W7_of_ne m ρ c main_v5 (by decide)).trans (src6 m ρ c)

theorem dst7 : W7 m ρ c (Proc.devRef .tc main_v6)
    = Cert.ReferenceIdeal.ReadP.val_main_v7 (F := Ideal) (m ((c : Thread nD τ).loc main_arg1)) :=
  (W7_of_ne m ρ c main_v6 (by decide)).trans (dst6 m ρ c)

theorem norm7 : W7 m ρ c (Proc.devRef .tc main_v29)
    = Cert.ReferenceIdeal.ReadP.val_main_v30 (F := Ideal) (m ((c : Thread nD τ).loc main_arg1)) :=
  (W7_of_ne m ρ c main_v29 (by decide)).trans (norm6 m ρ c)

theorem a2_7 : W7 m ρ c (Proc.devRef .tc main_arg2)
    = (m ((c : Thread nD τ).loc main_arg2)) :=
  (W7_of_ne m ρ c main_arg2 (by decide)).trans (a2_6 m ρ c)

theorem a6_7 : W7 m ρ c (Proc.devRef .tc main_arg6)
    = (m ((c : Thread nD τ).loc main_arg6)) :=
  (W7_of_ne m ρ c main_arg6 (by decide)).trans (a6_6 m ρ c)

end Cert.KernelIdeal.Stages

end
-- ==== Proof.PairScores.lean ====
/-
  The scoring call. Its two operands are [200704, 64] arrays (the two gathered embeddings, each padded with 704 rows);
  the call tiles their rows in 98 blocks of 2048 and, at block t, multiplies the two blocks entry by entry and adds each row
  up along its 64 lanes (a lane sum into a zero accumulator), writing the 2048 sums back to entries 2048·t … 2048·t + 2047
  of a [200704] result.

  Entry r of a block's sums reads row 2048·t + r of each operand and nothing else, so what block t writes back is block t of
  ONE function of the two whole arrays, their row-by-row pairing Σ_d a(e, d) · b(e, d); the 98 blocks tile the result
  (entry e lies in block e / 2048), so the result array ends holding that pairing.

  The program then keeps entries 0 … 199999 only. On those rows a padded operand is the operand itself, so the kept
  entries are the pairing of the two unpadded arrays — whatever the padding value is.
-/
import proofs.«173741_j21234318311808_1_alg».proof.Proof.Gen.KernelIdeal.Frame
import proofs.«173741_j21234318311808_1_alg».proof.Proof.Spec
import Idealize.ShloMosaic.Lib.Pipeline.Value
import Idealize.ShloMosaic.Lib.ValueIdx
import Idealize.ShloMosaic.Lib.KernelVsHost
import Idealize.ShloMosaic.PureOps.Ideal.Laws

set_option maxRecDepth 16384

noncomputable section

namespace Cert.KernelIdeal.PairScores

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- Entry r of what the body stores: row r of one block against row r of the other. -/
theorem body_entry (x0 x1 : FVec Ideal S2048x64 .f32) (r : Fin 2048) :
    k2_pay1 x0 x1 (ix1 r) = ∑ d : Fin 64, x0 (ix2 r d) * x1 (ix2 r d) := by
  unfold k2_pay1
  refine (Ideal.multiReduction_add_single _ 0x00000000#32 reduces_S2048x64_S2048 (.inl rfl) rfl (ix1 r)).trans ?_
  refine Finset.sum_congr rfl fun d _ => ?_
  have e : reduces_S2048x64_S2048.lift (ix1 r) d = ix2 r d :=
    funext fun a => Fin.ext (by match a with | ⟨0, _⟩ => rfl | ⟨1, _⟩ => rfl)
  have h0 := congrFun (shapeCast_self x0 shapeCasts_S2048x64_S2048x64) (reduces_S2048x64_S2048.lift (ix1 r) d)
  have h1 := congrFun (shapeCast_self x1 shapeCasts_S2048x64_S2048x64) (reduces_S2048x64_S2048.lift (ix1 r) d)
  exact (congrArg₂ (· * ·) h0 h1).trans (congrArg₂ (· * ·) (congrArg x0 e) (congrArg x1 e))

theorem origin1 : (![0] : Fin 1 → Nat) = fun _ => 0 := funext fun a => by fin_cases a; rfl
theorem origin2 : (![0, 0] : Fin 2 → Nat) = fun _ => 0 := funext fun a => by fin_cases a <;> rfl

/-- The three index maps over the grid: all three blocks move down the rows with the point. -/
theorem maps : ∀ t : Fin cfg2.N, win2_0.index t (0 : Fin 2) = win2_2.index t (0 : Fin 1)
    ∧ win2_0.index t (1 : Fin 2) = 0
    ∧ win2_1.index t (0 : Fin 2) = win2_2.index t (0 : Fin 1) ∧ win2_1.index t (1 : Fin 2) = 0 :=
  (by decide +kernel : ∀ t : Fin grid2.N, _)

/-- Every block of entries is some point's. -/
theorem onto : ∀ q : Fin 98, ∃ t : Fin cfg2.N, win2_2.index t = ![q.val] :=
  (by decide +kernel : ∀ q : Fin 98, ∃ t : Fin grid2.N, win2_2.index t = ![q.val])

/-- What point t writes back is block t of the pairing of the two arrays as the call finds them. -/
theorem block_written (c : Dev nD) (t : Fin cfg2.N) :
    (dat2 V c).flushed 2 t = ((cfg2.win 2).blk t).view.read (Elt Ideal)
      (Cert.Spec.rowDots (E := 200704) (D := 64) (V c main_v83) (V c main_v84)) := by
  show (cfg2.win 2).cut (grid2.coords t) ((dat2 V c).after 2 t) = _
  rw [after2_2]
  unfold out2_2
  rw [View.canon_unit_zero origin1]
  simp only [View.ld_unit_zero (S := S2048x64) origin2]
  obtain ⟨e0, e1, e2, e3⟩ := maps t
  funext j
  obtain ⟨r, rfl⟩ : ∃ r : Fin 2048, j = ix1 r := ⟨j 0, eq_ix1 j⟩
  refine (body_entry _ _ r).trans ?_
  show _ = Cert.Spec.rowDots (E := 200704) (D := 64) (V c main_v83) (V c main_v84) (((cfg2.win 2).blk t).view.emb (ix1 r))
  unfold Cert.Spec.rowDots
  show _ = ∑ d : Fin 64, _
  refine Finset.sum_congr rfl fun d _ => ?_
  have h0 : ((cfg2.win 0).blk t).view.emb (ix2 r d)
      = ix2 (⟨((((cfg2.win 2).blk t).view.emb (ix1 r)) 0).val, ((((cfg2.win 2).blk t).view.emb (ix1 r)) 0).isLt⟩ : Fin 200704) d := by
    funext a; apply Fin.ext
    match a with
    | ⟨0, _⟩ => show win2_0.index t (0 : Fin 2) * 2048 + 1 * r.val = win2_2.index t (0 : Fin 1) * 2048 + 1 * r.val; omega
    | ⟨1, _⟩ => show win2_0.index t (1 : Fin 2) * 64 + 1 * d.val = d.val; omega
  have h1 : ((cfg2.win 1).blk t).view.emb (ix2 r d)
      = ix2 (⟨((((cfg2.win 2).blk t).view.emb (ix1 r)) 0).val, ((((cfg2.win 2).blk t).view.emb (ix1 r)) 0).isLt⟩ : Fin 200704) d := by
    funext a; apply Fin.ext
    match a with
    | ⟨0, _⟩ => show win2_1.index t (0 : Fin 2) * 2048 + 1 * r.val = win2_2.index t (0 : Fin 1) * 2048 + 1 * r.val; omega
    | ⟨1, _⟩ => show win2_1.index t (1 : Fin 2) * 64 + 1 * d.val = d.val; omega
  exact congrArg₂ (· * ·)
    (congrArg (V c main_v83 : S200704x64.Idx → EReal) h0)
    (congrArg (V c main_v84 : S200704x64.Idx → EReal) h1)

/-- An entry of the result is in point t's block iff it is in the block's range. -/
theorem mem_block (t : Fin cfg2.N) (i : S200704.Idx) :
    i ∈ ((cfg2.win 2).blk t).view.set ↔ ∀ a : Fin 1, win2_2.index t a * S2048.size a ≤ (i a).val
      ∧ (i a).val < win2_2.index t a * S2048.size a + S2048.size a := by
  show i ∈ ((View.whole main_v85).slice (win2_2.rect t)).set ↔ _
  rw [View.set_slice_whole, Rect.mem_set_unit]
  exact Iff.rfl

/-- Entry e of the result lies in block e / 2048. -/
theorem cover (i : S200704.Idx) :
    ∃ t : Fin cfg2.N, (cfg2.win 2).flush t = true ∧ i ∈ ((cfg2.win 2).blk t).view.set := by
  have hi0 : (i 0).val < 200704 := (i 0).isLt
  obtain ⟨t, ht⟩ := onto ⟨(i 0).val / 2048, by omega⟩
  have q0 : win2_2.index t (0 : Fin 1) = (i 0).val / 2048 := congrFun ht 0
  refine ⟨t, flush2_2 t, ?_⟩
  rw [mem_block]
  intro a
  match a with
  | ⟨0, _⟩ => show win2_2.index t (0 : Fin 1) * 2048 ≤ (i 0).val ∧ (i 0).val < win2_2.index t (0 : Fin 1) * 2048 + 2048; omega

/-- The result array after the call: the pairing of the two arrays as the call found them. -/
theorem result (c : Dev nD) : (dat2 V c).arrAt 2 cfg2.N
    = Cert.Spec.rowDots (E := 200704) (D := 64) (V c main_v83) (V c main_v84) :=
  (dat2 V c).arrAt_eq_of_cover 2 _ (fun t _ => block_written V c t) cover

/-- The first 200000 entries of the pairing of two padded arrays are the pairing of the arrays themselves. -/
theorem kept_entries (a b : FVec Ideal S200000x64 .f32) (v w : FVec Ideal S_ .f32) :
    extractStridedSlice S200000 ![0]
        (Cert.Spec.rowDots (E := 200704) (D := 64)
          (pad S200704x64 ![0, 0] ![704, 0] ![0, 0] a v pads_S200000x64_S200704x64_07040_000 h_S_)
          (pad S200704x64 ![0, 0] ![704, 0] ![0, 0] b w pads_S200000x64_S200704x64_07040_000 h_S_))
        slices_S200704_S200000_0
      = Cert.Spec.rowDots (E := 200000) (D := 64) a b := by
  funext j
  obtain ⟨e, rfl⟩ : ∃ e : Fin 200000, j = ix1 e := ⟨j 0, eq_ix1 j⟩
  have he : e.val < 200704 := by have := e.isLt; omega
  refine (extractStridedSlice_apply _ _ slices_S200704_S200000_0 (ix1 e) (ix1 (⟨e.val, he⟩ : Fin 200704))
    (fun a => by match a with | ⟨0, _⟩ => show e.val = 0 + e.val; omega)).trans ?_
  refine (Cert.Spec.rowDots_ix1 _ _ _).trans ?_
  refine ((Finset.sum_congr rfl fun d _ => ?_).trans (Cert.Spec.rowDots_ix1 a b e).symm)
  have inside : ∀ (x : FVec Ideal S200000x64 .f32) (u : FVec Ideal S_ .f32),
      pad S200704x64 ![0, 0] ![704, 0] ![0, 0] x u pads_S200000x64_S200704x64_07040_000 h_S_ (ix2 (⟨e.val, he⟩ : Fin 200704) d)
        = x (ix2 e d) := fun x u =>
    pad_apply_of_inside _ _ _ x u pads_S200000x64_S200704x64_07040_000 h_S_ (ix2 (⟨e.val, he⟩ : Fin 200704) d) (ix2 e d)
      (fun a => by
        match a with
        | ⟨0, _⟩ => show e.val = 0 + e.val * (0 + 1); omega
        | ⟨1, _⟩ => show d.val = 0 + d.val * (0 + 1); omega)
  rw [inside a v, inside b w]

end Cert.KernelIdeal.PairScores

end
-- ==== Proof.StagesC.lean ====
/-
  The scoring stage, read on the kernel's side, and the comparison of the two results. After the second layer's
  aggregation (the same gather, scaling, scatter-add and bias as the reference's, over the same index vectors), the
  kernel gathers the embedding at each labelled pair's two nodes — the reference's two gathers —, pads each gathered array
  with 704 rows, pairs the padded arrays row by row in the scoring call and keeps the first 200000 entries. A kept entry
  reads rows below 200000 only, where a padded array is the array itself; so the kept entries are the row-by-row pairing
  of the two gathered embeddings, which is what the reference's multiply-and-sum computes (its sum starts from zero).
  Hence the buffer the kernel returns holds the reference's result, entry by entry, on the extended reals.
-/
import proofs.«173741_j21234318311808_1_alg».proof.Proof.StagesB
import proofs.«173741_j21234318311808_1_alg».proof.Proof.PairScores

set_option maxRecDepth 16384

noncomputable section

namespace Cert.KernelIdeal.Stages

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

set_option maxHeartbeats 4000000 in
theorem l8 : W8 m ρ c (Proc.devRef .tc main_v75)
    = Cert.ReferenceIdeal.ReadP.val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h0 := hw7 m ρ c
  have h1 := src7 m ρ c
  have h2 := dst7 m ρ c
  have h3 := norm7 m ρ c
  have h4 := a6_7 m ρ c
  have h5 := a2_7 m ρ c
  show StableHlo.after hostOps2 (W7 m ρ c) (Proc.devRef .tc main_v75) = _
  generalize W7 m ρ c = B at h0 h1 h2 h3 h4 h5 ⊢
  after_results_simp
  rw [h0, h1, h2, h3, h4, h5]
  rfl

set_option maxHeartbeats 4000000 in
theorem r8 : W8 m ρ c (Proc.devRef .tc main_v82)
    = Cert.ReferenceIdeal.ReadP.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h0 := hw7 m ρ c
  have h1 := src7 m ρ c
  have h2 := dst7 m ρ c
  have h3 := norm7 m ρ c
  have h4 := a6_7 m ρ c
  have h5 := a2_7 m ρ c
  show StableHlo.after hostOps2 (W7 m ρ c) (Proc.devRef .tc main_v82) = _
  generalize W7 m ρ c = B at h0 h1 h2 h3 h4 h5 ⊢
  after_results_simp
  rw [h0, h1, h2, h3, h4, h5]
  rfl

set_option maxHeartbeats 4000000 in
theorem c16_8 : W8 m ρ c (Proc.devRef .tc main_c_16)
    = (constantI S_ 32 0#32) := by
  show StableHlo.after hostOps2 (W7 m ρ c) (Proc.devRef .tc main_c_16) = _
  generalize W7 m ρ c = B
  after_results_simp <;> rfl

set_option maxHeartbeats 4000000 in
theorem padl9 : W9 m ρ c (Proc.devRef .tc main_v83)
    = pad S200704x64 ![0, 0] ![704, 0] ![0, 0] (W8 m ρ c (Proc.devRef .tc main_v75))
        (sitofp (F := Ideal) .f32 (W8 m ρ c (Proc.devRef .tc main_c_16)))
        pads_S200000x64_S200704x64_07040_000 h_S_ := by
  show StableHlo.after hostOps2_1 (W8 m ρ c) (Proc.devRef .tc main_v83) = _
  generalize W8 m ρ c = B
  after_results_simp <;> rfl

theorem lp9 : W9 m ρ c (Proc.devRef .tc main_v83)
    = pad S200704x64 ![0, 0] ![704, 0] ![0, 0] (Cert.ReferenceIdeal.ReadP.val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
        (sitofp (F := Ideal) .f32 (constantI S_ 32 0#32))
        pads_S200000x64_S200704x64_07040_000 h_S_ := by
  rw [padl9 m ρ c, l8 m ρ c, c16_8 m ρ c]

set_option maxHeartbeats 4000000 in
theorem r9 : W9 m ρ c (Proc.devRef .tc main_v82)
    = Cert.ReferenceIdeal.ReadP.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h := r8 m ρ c
  show StableHlo.after hostOps2_1 (W8 m ρ c) (Proc.devRef .tc main_v82) = _
  generalize W8 m ρ c = B at h ⊢
  after_results_simp
  exact h

set_option maxHeartbeats 4000000 in
theorem lp10 : W10 m ρ c (Proc.devRef .tc main_v83)
    = pad S200704x64 ![0, 0] ![704, 0] ![0, 0] (Cert.ReferenceIdeal.ReadP.val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
        (sitofp (F := Ideal) .f32 (constantI S_ 32 0#32))
        pads_S200000x64_S200704x64_07040_000 h_S_ := by
  have h := lp9 m ρ c
  show StableHlo.after hostOps2_2 (W9 m ρ c) (Proc.devRef .tc main_v83) = _
  generalize W9 m ρ c = B at h ⊢
  after_results_simp
  exact h

set_option maxHeartbeats 4000000 in
theorem r10 : W10 m ρ c (Proc.devRef .tc main_v82)
    = Cert.ReferenceIdeal.ReadP.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h := r9 m ρ c
  show StableHlo.after hostOps2_2 (W9 m ρ c) (Proc.devRef .tc main_v82) = _
  generalize W9 m ρ c = B at h ⊢
  after_results_simp
  exact h

set_option maxHeartbeats 4000000 in
theorem c17_10 : W10 m ρ c (Proc.devRef .tc main_c_17)
    = (constantI S_ 32 0#32) := by
  show StableHlo.after hostOps2_2 (W9 m ρ c) (Proc.devRef .tc main_c_17) = _
  generalize W9 m ρ c = B
  after_results_simp <;> rfl

set_option maxHeartbeats 4000000 in
theorem padr11 : W11 m ρ c (Proc.devRef .tc main_v84)
    = pad S200704x64 ![0, 0] ![704, 0] ![0, 0] (W10 m ρ c (Proc.devRef .tc main_v82))
        (sitofp (F := Ideal) .f32 (W10 m ρ c (Proc.devRef .tc main_c_17)))
        pads_S200000x64_S200704x64_07040_000 h_S_ := by
  show StableHlo.after hostOps2_3 (W10 m ρ c) (Proc.devRef .tc main_v84) = _
  generalize W10 m ρ c = B
  after_results_simp <;> rfl

theorem rp11 : W11 m ρ c (Proc.devRef .tc main_v84)
    = pad S200704x64 ![0, 0] ![704, 0] ![0, 0] (Cert.ReferenceIdeal.ReadP.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
        (sitofp (F := Ideal) .f32 (constantI S_ 32 0#32))
        pads_S200000x64_S200704x64_07040_000 h_S_ := by
  rw [padr11 m ρ c, r10 m ρ c, c17_10 m ρ c]

set_option maxHeartbeats 4000000 in
theorem lp11 : W11 m ρ c (Proc.devRef .tc main_v83)
    = pad S200704x64 ![0, 0] ![704, 0] ![0, 0] (Cert.ReferenceIdeal.ReadP.val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
        (sitofp (F := Ideal) .f32 (constantI S_ 32 0#32))
        pads_S200000x64_S200704x64_07040_000 h_S_ := by
  have h := lp10 m ρ c
  show StableHlo.after hostOps2_3 (W10 m ρ c) (Proc.devRef .tc main_v83) = _
  generalize W10 m ρ c = B at h ⊢
  after_results_simp
  exact h

theorem scored12 : W12 m ρ c (Proc.devRef .tc main_v85)
    = Cert.Spec.rowDots (E := 200704) (D := 64)
      (pad S200704x64 ![0, 0] ![704, 0] ![0, 0] (Cert.ReferenceIdeal.ReadP.val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
        (sitofp (F := Ideal) .f32 (constantI S_ 32 0#32))
        pads_S200000x64_S200704x64_07040_000 h_S_)
      (pad S200704x64 ![0, 0] ![704, 0] ![0, 0] (Cert.ReferenceIdeal.ReadP.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
        (sitofp (F := Ideal) .f32 (constantI S_ 32 0#32))
        pads_S200000x64_S200704x64_07040_000 h_S_) := by
  refine (W12_arr m ρ c 2).trans ?_
  refine (Cert.KernelIdeal.PairScores.result (V11 m ρ) c).trans ?_
  have e0 : V11 m ρ c main_v83 = pad S200704x64 ![0, 0] ![704, 0] ![0, 0] (Cert.ReferenceIdeal.ReadP.val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
        (sitofp (F := Ideal) .f32 (constantI S_ 32 0#32))
        pads_S200000x64_S200704x64_07040_000 h_S_ := lp11 m ρ c
  have e1 : V11 m ρ c main_v84 = pad S200704x64 ![0, 0] ![704, 0] ![0, 0] (Cert.ReferenceIdeal.ReadP.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
        (sitofp (F := Ideal) .f32 (constantI S_ 32 0#32))
        pads_S200000x64_S200704x64_07040_000 h_S_ := rp11 m ρ c
  rw [e0, e1]

set_option maxHeartbeats 4000000 in
/-- The buffer the kernel returns holds the reference's result. -/
theorem out13 : W13 m ρ c (Proc.devRef .tc main_v86)
    = Cert.ReferenceIdeal.ReadP.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h := scored12 m ρ c
  show StableHlo.after hostOps3 (W12 m ρ c) (Proc.devRef .tc main_v86) = _
  generalize W12 m ρ c = B at h ⊢
  after_results_simp
  rw [h]
  exact (Cert.KernelIdeal.PairScores.kept_entries _ _ _ _).trans (Cert.ReferenceIdeal.AgainstSpec.scores _ _ _ _ _ _ _).symm

end Cert.KernelIdeal.Stages

end
-- ==== Proof.lean ====
/-
  Two programs for one graph network: two graph-convolution layers over 100000 nodes (multiply the node features by a
  weight, gather the products at the edges' sources, scale by the symmetric degree normalisation, add them up at the
  edges' destinations, add a bias; a clamp at zero between the layers), then for each of 200000 labelled node pairs the
  inner product of the two nodes' embeddings.

  The kernel computes the two weight products and the final inner products in three pipelined calls — the products in 20
  blocks of 5000 rows with the operands narrowed to bf16, the inner products in 98 blocks of 2048 rows of arrays padded to
  200704 rows, cut back to 200000 afterwards — and everything else by the reference's own host operations; it computes the
  degree normalisation once where the reference's text computes it before each layer.

  On the extended reals none of that changes a value. A change of float format is the identity; a block of a product is
  the same sums of row-times-column products, regrouped by rows; the padded rows are never among the kept entries; a lane
  sum into a zero accumulator and a host sum from zero are the same finite sum; and the normalisation is the same term
  either time it is computed. No step uses distributivity or cancellation, so the proof never needs the inputs to be
  finite: the precondition is only carried along. The kernel's run is read segment by segment — each buffer at each
  boundary is identified with the value the reference's text gives the corresponding operation — down to the buffer it
  returns; the reference's run is its composed term, which is its last operation's value.

  The word-level program's frame and the idealized program's frame are the generated ones (every call's body stores through
  literal rectangles); the reference, having no call, has its frame from its run. The idealized kernel is the kernel's own
  text read on the extended reals — no operation of it was rewritten; the narrowings to bf16 stay in the text and denote
  the identity there — so the conjunct that lists the rewrites is the empty conjunction, `True`.
-/
import proofs.«173741_j21234318311808_1_alg».proof.Defs
import proofs.«173741_j21234318311808_1_alg».proof.Proof.Gen.Kernel
import proofs.«173741_j21234318311808_1_alg».proof.Proof.Gen.Kernel.Skeleton
import proofs.«173741_j21234318311808_1_alg».proof.Proof.Gen.Kernel.Launch
import proofs.«173741_j21234318311808_1_alg».proof.Proof.Gen.Kernel.Points
import proofs.«173741_j21234318311808_1_alg».proof.Proof.Gen.Kernel.Frame
import proofs.«173741_j21234318311808_1_alg».proof.Proof.Gen.KernelIdeal
import proofs.«173741_j21234318311808_1_alg».proof.Proof.Gen.KernelIdeal.Skeleton
import proofs.«173741_j21234318311808_1_alg».proof.Proof.Gen.KernelIdeal.Launch
import proofs.«173741_j21234318311808_1_alg».proof.Proof.Gen.KernelIdeal.Points
import proofs.«173741_j21234318311808_1_alg».proof.Proof.Gen.KernelIdeal.Frame
import proofs.«173741_j21234318311808_1_alg».proof.Proof.Gen.ReferenceIdeal
import proofs.«173741_j21234318311808_1_alg».proof.Proof.Gen.Pre_finite_inputs
import proofs.«173741_j21234318311808_1_alg».proof.Proof.RefRun
import proofs.«173741_j21234318311808_1_alg».proof.Proof.RefRead
import proofs.«173741_j21234318311808_1_alg».proof.Proof.WholeRun
import proofs.«173741_j21234318311808_1_alg».proof.Proof.StagesC
import Idealize.ShloMosaic.Adequacy
import Idealize.ShloMosaic.Init

noncomputable section

namespace Cert.Proof

open Idealize.ShloMosaic Idealize.SL.Sem Cert.Kernel

/-- The word-level kernel runs and leaves its arguments as launched. -/
theorem frame_kernel : Cert.frame_Kernel :=
  fun m ρ _ => Cert.Kernel.Gen.frame m ρ

/-- The idealized kernel runs and leaves its arguments as launched. -/
theorem frame_kernelIdeal : Cert.frame_KernelIdeal :=
  fun m ρ _ => Cert.KernelIdeal.Gen.frame m ρ

/-- The reference runs and leaves its arguments as launched: its run with the result dropped. -/
theorem frame_reference : Cert.frame_ReferenceIdeal :=
  fun m ρ _ => (θ_run Cert.ReferenceIdeal.defs _ _).mono (fun _ h c => (h c).2)
    (Cert.ReferenceIdeal.ValueP.run (F := Ideal) m ρ)

/-- From memories agreeing on the seven arguments both programs run, leave the arguments as launched, and return the same
    array: the kernel's returned buffer holds the reference's last operation's value of the kernel's arguments, and the
    reference's run ends at that value of its own arguments, which are the same arrays. -/
theorem algebraic : Cert.algebraic_KernelIdeal_ReferenceIdeal := by
  intro m ρ m' ρ' _ hagree
  refine ⟨fun c => Cert.KernelIdeal.Gen.W13 m ρ c (Proc.devRef .tc Cert.KernelIdeal.main_v86),
    Cert.KernelIdeal.WholeRun.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v114_eq, (hagree c).1, (hagree c).2.1, (hagree c).2.2.1, (hagree c).2.2.2.1,
    (hagree c).2.2.2.2.1, (hagree c).2.2.2.2.2.1, (hagree c).2.2.2.2.2.2]
  exact (Cert.KernelIdeal.Stages.out13 m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
